-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S2000x128 : Shape := ⟨2, ![2000, 128]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S1x64 : Shape := ⟨2, ![1, 64]⟩
abbrev S50000x64 : Shape := ⟨2, ![50000, 64]⟩
abbrev S2000x64 : Shape := ⟨2, ![2000, 64]⟩

abbrev nBuf : Space → Nat
  | .hbm => 69
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S50000, .i32⟩
  | .hbm, ⟨9, _⟩ => ⟨S1x600000, .i32⟩
  | .hbm, ⟨10, _⟩ => ⟨S600000, .i32⟩
  | .hbm, ⟨11, _⟩ => ⟨S650000, .i32⟩
  | .hbm, ⟨12, _⟩ => ⟨S1x600000, .i32⟩
  | .hbm, ⟨13, _⟩ => ⟨S600000, .i32⟩
  | .hbm, ⟨14, _⟩ => ⟨S650000, .i32⟩
  | .hbm, ⟨15, _⟩ => ⟨S50000x128, .f32⟩
  | .hbm, ⟨16, _⟩ => ⟨S_, .f32⟩
  | .hbm, ⟨17, _⟩ => ⟨S650000, .f32⟩
  | .hbm, ⟨18, _⟩ => ⟨S_, .f32⟩
  | .hbm, ⟨19, _⟩ => ⟨S50000, .f32⟩
  | .hbm, ⟨20, _⟩ => ⟨S650000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S650000, .i32⟩
  | .hbm, ⟨32, _⟩ => ⟨S650000, .i1⟩
  | .hbm, ⟨33, _⟩ => ⟨S_, .i32⟩
  | .hbm, ⟨34, _⟩ => ⟨S650000, .i32⟩
  | .hbm, ⟨35, _⟩ => ⟨S650000, .i32⟩
  | .hbm, ⟨36, _⟩ => ⟨S650000, .i32⟩
  | .hbm, ⟨37, _⟩ => ⟨S650000x1, .i32⟩
  | .hbm, ⟨38, _⟩ => ⟨S650000, .f32⟩
  | .hbm, ⟨39, _⟩ => ⟨S_, .i32⟩
  | .hbm, ⟨40, _⟩ => ⟨S650000, .i32⟩
  | .hbm, ⟨41, _⟩ => ⟨S650000, .i1⟩
  | .hbm, ⟨42, _⟩ => ⟨S_, .i32⟩
  | .hbm, ⟨43, _⟩ => ⟨S650000, .i32⟩
  | .hbm, ⟨44, _⟩ => ⟨S650000, .i32⟩
  | .hbm, ⟨45, _⟩ => ⟨S650000, .i32⟩
  | .hbm, ⟨46, _⟩ => ⟨S650000x1, .i32⟩
  | .hbm, ⟨47, _⟩ => ⟨S650000, .f32⟩
  | .hbm, ⟨48, _⟩ => ⟨S650000, .f32⟩
  | .hbm, ⟨49, _⟩ => ⟨S_, .i32⟩
  | .hbm, ⟨50, _⟩ => ⟨S650000, .i32⟩
  | .hbm, ⟨51, _⟩ => ⟨S650000, .i1⟩
  | .hbm, ⟨52, _⟩ => ⟨S_, .i32⟩
  | .hbm, ⟨53, _⟩ => ⟨S650000, .i32⟩
  | .hbm, ⟨54, _⟩ => ⟨S650000, .i32⟩
  | .hbm, ⟨55, _⟩ => ⟨S650000, .i32⟩
  | .hbm, ⟨56, _⟩ => ⟨S650000x1, .i32⟩
  | .hbm, ⟨57, _⟩ => ⟨S650000x128, .f32⟩
  | .hbm, ⟨58, _⟩ => ⟨S650000x1, .f32⟩
  | .hbm, ⟨59, _⟩ => ⟨S650000x128, .f32⟩
  | .hbm, ⟨60, _⟩ => ⟨S650000x128, .f32⟩
  | .hbm, ⟨61, _⟩ => ⟨S_, .f32⟩
  | .hbm, ⟨62, _⟩ => ⟨S50000x128, .f32⟩
  | .hbm, ⟨63, _⟩ => ⟨S650000x1, .i32⟩
  | .hbm, ⟨64, _⟩ => ⟨S50000x128, .f32⟩
  | .hbm, ⟨65, _⟩ => ⟨S1x128, .f32⟩
  | .hbm, ⟨66, _⟩ => ⟨S1x128, .f32⟩
  | .hbm, ⟨67, _⟩ => ⟨S1x64, .f32⟩
  | .hbm, ⟨68, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S128x64, .f32⟩
  | .local _ .vmem, ⟨11, _⟩ => ⟨S1x64, .f32⟩
  | .local _ .vmem, ⟨12, _⟩ => ⟨S2000x64, .f32⟩
  | .local _ .vmem, ⟨13, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  shapeCasts_S128_S1x128 : S128.ShapeCasts S1x128
  shapeCasts_S64_S1x64 : S64.ShapeCasts S1x64
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  dot_S2000x128_S128x128_S2000x128_1_0_0_1_n_n_wf : DotDims.WF S2000x128 S128x128 S2000x128 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x64.size a ≤ S50000x64.size a
  hwx1_6 : ∀ i : grid1.Coords, EltTy.bits .f32 = 32 ∨ (Rect.block (s := S50000x64) S2000x64.size (cc1_transform_6 i) (hinb1_6 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v47) S2000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S50000x64 : Shape := ⟨2, ![50000, 64]⟩
abbrev S1x64 : Shape := ⟨2, ![1, 64]⟩

abbrev nBuf : Space → Nat
  | .hbm => 82
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S50000, .i32⟩
  | .hbm, ⟨9, _⟩ => ⟨S1x600000, .i32⟩
  | .hbm, ⟨10, _⟩ => ⟨S600000, .i32⟩
  | .hbm, ⟨11, _⟩ => ⟨S650000, .i32⟩
  | .hbm, ⟨12, _⟩ => ⟨S1x600000, .i32⟩
  | .hbm, ⟨13, _⟩ => ⟨S600000, .i32⟩
  | .hbm, ⟨14, _⟩ => ⟨S650000, .i32⟩
  | .hbm, ⟨15, _⟩ => ⟨S50000x128, .f32⟩
  | .hbm, ⟨16, _⟩ => ⟨S_, .f32⟩
  | .hbm, ⟨17, _⟩ => ⟨S650000, .f32⟩
  | .hbm, ⟨18, _⟩ => ⟨S_, .f32⟩
  | .hbm, ⟨19, _⟩ => ⟨S50000, .f32⟩
  | .hbm, ⟨20, _⟩ => ⟨S650000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S650000, .i32⟩
  | .hbm, ⟨32, _⟩ => ⟨S650000, .i1⟩
  | .hbm, ⟨33, _⟩ => ⟨S_, .i32⟩
  | .hbm, ⟨34, _⟩ => ⟨S650000, .i32⟩
  | .hbm, ⟨35, _⟩ => ⟨S650000, .i32⟩
  | .hbm, ⟨36, _⟩ => ⟨S650000, .i32⟩
  | .hbm, ⟨37, _⟩ => ⟨S650000x1, .i32⟩
  | .hbm, ⟨38, _⟩ => ⟨S650000, .f32⟩
  | .hbm, ⟨39, _⟩ => ⟨S_, .i32⟩
  | .hbm, ⟨40, _⟩ => ⟨S650000, .i32⟩
  | .hbm, ⟨41, _⟩ => ⟨S650000, .i1⟩
  | .hbm, ⟨42, _⟩ => ⟨S_, .i32⟩
  | .hbm, ⟨43, _⟩ => ⟨S650000, .i32⟩
  | .hbm, ⟨44, _⟩ => ⟨S650000, .i32⟩
  | .hbm, ⟨45, _⟩ => ⟨S650000, .i32⟩
  | .hbm, ⟨46, _⟩ => ⟨S650000x1, .i32⟩
  | .hbm, ⟨47, _⟩ => ⟨S650000, .f32⟩
  | .hbm, ⟨48, _⟩ => ⟨S650000, .f32⟩
  | .hbm, ⟨49, _⟩ => ⟨S_, .i32⟩
  | .hbm, ⟨50, _⟩ => ⟨S650000, .i32⟩
  | .hbm, ⟨51, _⟩ => ⟨S650000, .i1⟩
  | .hbm, ⟨52, _⟩ => ⟨S_, .i32⟩
  | .hbm, ⟨53, _⟩ => ⟨S650000, .i32⟩
  | .hbm, ⟨54, _⟩ => ⟨S650000, .i32⟩
  | .hbm, ⟨55, _⟩ => ⟨S650000, .i32⟩
  | .hbm, ⟨56, _⟩ => ⟨S650000x1, .i32⟩
  | .hbm, ⟨57, _⟩ => ⟨S650000x128, .f32⟩
  | .hbm, ⟨58, _⟩ => ⟨S650000x1, .f32⟩
  | .hbm, ⟨59, _⟩ => ⟨S650000x128, .f32⟩
  | .hbm, ⟨60, _⟩ => ⟨S650000x128, .f32⟩
  | .hbm, ⟨61, _⟩ => ⟨S_, .f32⟩
  | .hbm, ⟨62, _⟩ => ⟨S50000x128, .f32⟩
  | .hbm, ⟨63, _⟩ => ⟨S650000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S_, .f32⟩
  | .hbm, ⟨76, _⟩ => ⟨S50000x128, .f32⟩
  | .hbm, ⟨77, _⟩ => ⟨S50000x128, .f32⟩
  | .hbm, ⟨78, _⟩ => ⟨S50000x64, .f32⟩
  | .hbm, ⟨79, _⟩ => ⟨S1x64, .f32⟩
  | .hbm, ⟨80, _⟩ => ⟨S50000x64, .f32⟩
  | .hbm, ⟨81, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_call2_cst : Ref sig .tc := ⟨.hbm, 75, rfl⟩
abbrev main_call2_v0 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x64_S50000x64_1_0_0_1_n_n_wf : DotDims.WF S50000x128 S128x64 S50000x64 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel's run with its result kept.

  @main is a stretch of host operations, the first kernel region, three more stretches, and the second region. Every
  weakly fair execution goes through these segments in order: each stretch leaves the buffers at the operations' values of
  what it found, each region leaves its arrays at what the write-backs of its grid points fold to and every other buffer as
  it found it. So the execution ends with every buffer at the last boundary's contents: in particular the result buffer, and the
  argument arrays, which no segment writes. The generated frame states the same run and keeps only the arguments; here the
  result buffer is kept as well, at the last boundary's contents by name.
-/
import proofs.«148161_j78769700209215_1_alg».proof.Proof.Gen.KernelIdeal.Frame

set_option maxRecDepth 16384

noncomputable section

namespace Cert.KernelIdeal.RunResult

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the last boundary's
    contents and the argument arrays as launched. -/
theorem run_result : θ_run defs (onTc (τ := τ) (main (F := F))) ⟨m, fun _ => 0, ρ⟩ (fun r => ∀ c : Dev nD,
      r.2.mem ((c.tc : Thread nD τ).loc main_v47) = W6 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v47 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.RunResult

end
-- ==== Proof.LibDotSum.lean ====
/-
  A matrix product's contraction sum, re-indexed to a plain sum over its one contracted axis.

  For a dot of an `M × K` array with a `K × N` array that contracts the left operand's second axis
  against the right operand's first, the entry at `(p, q)` is the sum over the contraction index of
  `l (p, k) * r (k, q)`. The contraction index is a one-axis index of extent `K`; carrying the sum
  along the bijection with `Fin K` gives `∑ k : Fin K, l (ix2 p k) * r (ix2 k q)`.
  The coordinate facts of the dimension record are hypotheses, so that one statement serves every record
  of this plain form (for a literal record each holds by computation).
-/
import Idealize.ShloMosaic.PureOps.Ideal
import Idealize.ShloMosaic.PureOps.Dims
import Idealize.ShloMosaic.Lib.ValueIdx

noncomputable section

namespace Cert.LibDotSum

open Idealize.ShloMosaic Idealize.ShloMosaic.ValueIdx

/-- GENERAL LEMMA. For a dot record `d` on shapes `[M, K] × [K, N] → [M, N]` whose contraction shape has one
    axis of extent `K`, whose left index at `(j, k)` is `(j 0, k)` and whose right index is `(k, j 1)`, the
    contraction sum of `l` against `r` at the output index `j` is `∑ k : Fin K, l (j 0, k) * r (k, j 1)`. -/
theorem sum_contr_eq_sum_fin {M K N : Nat}
    (d : DotDims (⟨2, ![M, K]⟩ : Shape) (⟨2, ![K, N]⟩ : Shape) (⟨2, ![M, N]⟩ : Shape))
    (hrank : d.contr.rank = 1) (hsize : d.contr.size ⟨0, by omega⟩ = K)
    (hl0 : ∀ (j : (⟨2, ![M, N]⟩ : Shape).Idx) (k : d.contr.Idx), (d.lhsIdx j k 0).val = (j 0).val)
    (hl1 : ∀ (j : (⟨2, ![M, N]⟩ : Shape).Idx) (k : d.contr.Idx), (d.lhsIdx j k 1).val = (k ⟨0, by omega⟩).val)
    (hr0 : ∀ (j : (⟨2, ![M, N]⟩ : Shape).Idx) (k : d.contr.Idx), (d.rhsIdx j k 0).val = (k ⟨0, by omega⟩).val)
    (hr1 : ∀ (j : (⟨2, ![M, N]⟩ : Shape).Idx) (k : d.contr.Idx), (d.rhsIdx j k 1).val = (j 1).val)
    (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k)
      = ∑ k : Fin K, l (ix2 (j 0) k) * r (ix2 k (j 1)) := by
  rw [← Equiv.sum_comp (contrEquiv1 d K hrank hsize).symm]
  refine Finset.sum_congr rfl fun k _ => ?_
  have hk : (((contrEquiv1 d K hrank hsize).symm k) ⟨0, by omega⟩ : ℕ) = k.val :=
    contrEquiv1_symm_val d K hrank hsize k
  have el : d.lhsIdx j ((contrEquiv1 d K hrank hsize).symm k) = ix2 (j 0) k := by
    funext a
    apply Fin.ext
    match a with
    | ⟨0, _⟩ => exact hl0 j _
    | ⟨1, _⟩ => exact (hl1 j _).trans hk
  have er : d.rhsIdx j ((contrEquiv1 d K hrank hsize).symm k) = ix2 k (j 1) := by
    funext a
    apply Fin.ext
    match a with
    | ⟨0, _⟩ => exact (hr0 j _).trans hk
    | ⟨1, _⟩ => exact hr1 j _
  rw [el, er]
  rfl

end Cert.LibDotSum

end
-- ==== Proof.LibHostLayout.lean ====
/-
  Host layout operations of small rank read at an index.

  A reference written with keepdims and with a bias added along rows broadcasts in two steps: a vector `[a]` to a column
  `[a, 1]` and the column over the row `[a, b]`; a vector `[b]` to one row `[1, b]` and the row down the rows `[a, b]`. A
  leading block of rows is a slice at offset zero. Each is read here at an index built by `ix2`, in the style of the
  library's layout lemmas.
-/
import Idealize.ShloMosaic.Lib.Pipeline.Value
import Idealize.ShloMosaic.Lib.ValueIdx

noncomputable section

namespace Cert.LibHostLayout

open Idealize.ShloMosaic Idealize.ShloMosaic.ValueIdx

variable {α : Type}

/-- GENERAL LEMMA. An `[a]` array broadcast in dimension 0 to `[a, 1]` reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) :=
  broadcastInDim_apply ![0] h x (ix2 p u) (ix1 p) fun ax => by
    match ax with
    | ⟨0, _⟩ =>
      show p.val = if a = 1 then 0 else p.val
      split
      · have := p.isLt; omega
      · rfl

/-- GENERAL LEMMA. An `[a, 1]` column broadcast in dimensions (0, 1) to `[a, b]` reads, at `(p, c)`, the column at `(p, 0)`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply ![0, 1] h v (ix2 p c) (ix2 p (0 : Fin 1)) fun ax => by
    match ax with
    | ⟨0, _⟩ =>
      show p.val = if a = 1 then 0 else p.val
      split
      · have := p.isLt; omega
      · rfl
    | ⟨1, _⟩ => rfl

/-- GENERAL LEMMA. A `[b]` array broadcast in dimension 1 to `[1, b]` reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) :=
  broadcastInDim_apply ![1] h x (ix2 u c) (ix1 c) fun ax => by
    match ax with
    | ⟨0, _⟩ =>
      show c.val = if b = 1 then 0 else c.val
      split
      · have := c.isLt; omega
      · rfl

/-- GENERAL LEMMA. A `[1, b]` row broadcast in dimensions (0, 1) to `[a, b]` reads, at `(p, c)`, the row at `(0, c)`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply ![0, 1] h v (ix2 p c) (ix2 (0 : Fin 1) c) fun ax => by
    match ax with
    | ⟨0, _⟩ => rfl
    | ⟨1, _⟩ =>
      show c.val = if b = 1 then 0 else c.val
      split
      · have := c.isLt; omega
      · rfl

/-- GENERAL LEMMA. The leading `m` rows of an `[n, b]` array, sliced at offset zero, read at `(p, c)` the array at `(p, c)`. -/
theorem slice_rows_apply {n m b : ℕ} (x : (⟨2, ![n, b]⟩ : Shape).Idx → α)
    (h : (⟨2, ![n, b]⟩ : Shape).Slices ![0, 0] ⟨2, ![m, b]⟩) (p : Fin m) (hp : p.val < n) (c : Fin b) :
    extractStridedSlice ⟨2, ![m, b]⟩ ![0, 0] x h (ix2 p c) = x (ix2 (⟨p.val, hp⟩ : Fin n) c) :=
  extractStridedSlice_apply ![0, 0] x h (ix2 p c) (ix2 (⟨p.val, hp⟩ : Fin n) c) fun ax => by
    match ax with
    | ⟨0, _⟩ => show p.val = 0 + p.val; omega
    | ⟨1, _⟩ => show c.val = 0 + c.val; omega

end Cert.LibHostLayout

end
-- ==== Proof.LibLayers.lean ====
/-
  The layers of the message-passing network as functions of whole arrays, and how the host's and the
  kernel's spellings of one layer read as those functions.

  A dense layer of an `n × d` array `X` with weights `W : d × h` and bias `b : h` has the entry
  `(∑ k, X (p, k) * W (k, q)) + b q` at `(p, q)`; `relu` is the entrywise maximum with zero. On the host the
  layer is a `dot_general` plus the bias broadcast first to one row and then down the rows; in a kernel body it is a
  matrix product into a zero accumulator plus the bias, held as a `1 × h` block, broadcast down the rows. Over the
  extended reals both are the same function, because a change of float format is the identity there.
  Every entry of a layer's result depends on one row of its input only, which is what lets a row block of the result
  be computed from the same row block of the input.
-/
import Idealize.ShloMosaic.PureOps.Ideal.Laws
import Idealize.ShloMosaic.Lib.Pipeline.Value
import Idealize.ShloMosaic.Lib.ValueIdx
import proofs.«148161_j78769700209215_1_alg».proof.Proof.LibDotSum
import proofs.«148161_j78769700209215_1_alg».proof.Proof.LibHostLayout

noncomputable section

namespace Cert.Layers

open Idealize.ShloMosaic Idealize.ShloMosaic.ValueIdx

/-- An `n × d` array of extended reals. -/
abbrev Mat (n d : ℕ) : Type := (⟨2, ![n, d]⟩ : Shape).Idx → EReal
/-- A vector of `d` extended reals. -/
abbrev Row (d : ℕ) : Type := (⟨1, ![d]⟩ : Shape).Idx → EReal

/-- The product of `X` with `W`: entry `(p, q)` is `∑ k, X (p, k) * W (k, q)`. -/
def mm {n d h : ℕ} (X : Mat n d) (W : Mat d h) : Mat n h :=
  fun i => ∑ k : Fin d, X (ix2 (i 0) k) * W (ix2 k (i 1))

/-- The bias `b` added to every row. -/
def addRow {n h : ℕ} (Y : Mat n h) (b : Row h) : Mat n h := fun i => Y i + b (ix1 (i 1))

/-- A dense layer: the product plus the bias on every row. -/
def dense {n d h : ℕ} (X : Mat n d) (W : Mat d h) (b : Row h) : Mat n h := addRow (mm X W) b

/-- The entrywise maximum with zero (zero kept as the float word it is printed as). -/
def relu {n h : ℕ} (Y : Mat n h) : Mat n h := fun i => max (Y i) (Ideal.ofBits .f32 0x00000000#32)

/-- The one row of a `1 × h` array, as a vector. -/
def rowOf {h : ℕ} (B : Mat 1 h) : Row h := fun i => B (ix2 (0 : Fin 1) (i 0))

/-! ## Each entry depends on one row of the input -/

theorem mm_row {n n' d h : ℕ} (X : Mat n d) (X' : Mat n' d) (W : Mat d h) (p : Fin n) (p' : Fin n') (q : Fin h)
    (hX : ∀ k : Fin d, X (ix2 p k) = X' (ix2 p' k)) : mm X W (ix2 p q) = mm X' W (ix2 p' q) := by
  unfold mm
  exact Finset.sum_congr rfl fun k _ => congrArg (· * W (ix2 k q)) (hX k)

theorem dense_row {n n' d h : ℕ} (X : Mat n d) (X' : Mat n' d) (W : Mat d h) (b : Row h) (p : Fin n) (p' : Fin n')
    (q : Fin h) (hX : ∀ k : Fin d, X (ix2 p k) = X' (ix2 p' k)) : dense X W b (ix2 p q) = dense X' W b (ix2 p' q) := by
  unfold dense addRow
  exact congrArg (· + b (ix1 q)) (mm_row X X' W p p' q hX)

theorem relu_row {n n' h : ℕ} (Y : Mat n h) (Y' : Mat n' h) (p : Fin n) (p' : Fin n') (q : Fin h)
    (hY : Y (ix2 p q) = Y' (ix2 p' q)) : relu Y (ix2 p q) = relu Y' (ix2 p' q) := by
  unfold relu
  exact congrArg (max · _) hY

/-! ## The host's spelling -/

/-- GENERAL LEMMA. The host's `dot_general` of a plain `[n, d] × [d, h]` record is the product. -/
theorem host_dot {n d h : ℕ} {φ₁ φ₂ : FTy}
    (D : DotDims (⟨2, ![n, d]⟩ : Shape) (⟨2, ![d, h]⟩ : Shape) (⟨2, ![n, h]⟩ : Shape))
    (hrank : D.contr.rank = 1) (hsize : D.contr.size ⟨0, by omega⟩ = d)
    (hl0 : ∀ (j : (⟨2, ![n, h]⟩ : Shape).Idx) (k : D.contr.Idx), (D.lhsIdx j k 0).val = (j 0).val)
    (hl1 : ∀ (j : (⟨2, ![n, h]⟩ : Shape).Idx) (k : D.contr.Idx), (D.lhsIdx j k 1).val = (k ⟨0, by omega⟩).val)
    (hr0 : ∀ (j : (⟨2, ![n, h]⟩ : Shape).Idx) (k : D.contr.Idx), (D.rhsIdx j k 0).val = (k ⟨0, by omega⟩).val)
    (hr1 : ∀ (j : (⟨2, ![n, h]⟩ : Shape).Idx) (k : D.contr.Idx), (D.rhsIdx j k 1).val = (j 1).val)
    (prec : Option ContractPrecision)
    (X : FVec Ideal (⟨2, ![n, d]⟩ : Shape) φ₁) (W : FVec Ideal (⟨2, ![d, h]⟩ : Shape) φ₂) :
    Host.dotGeneral D prec X W = mm X W := by
  funext j
  show FloatOps.dotGeneral D prec .single X W j = _
  rw [Ideal.dotGeneral_apply]
  exact Cert.LibDotSum.sum_contr_eq_sum_fin D hrank hsize hl0 hl1 hr0 hr1 X W j

/-- GENERAL LEMMA. The kernel's matrix product into a zero accumulator, of a plain record, is the product. -/
theorem kernel_matmul {n d h : ℕ} {φ₁ φ₂ : FTy}
    (D : DotDims (⟨2, ![n, d]⟩ : Shape) (⟨2, ![d, h]⟩ : Shape) (⟨2, ![n, h]⟩ : Shape))
    (hrank : D.contr.rank = 1) (hsize : D.contr.size ⟨0, by omega⟩ = d)
    (hl0 : ∀ (j : (⟨2, ![n, h]⟩ : Shape).Idx) (k : D.contr.Idx), (D.lhsIdx j k 0).val = (j 0).val)
    (hl1 : ∀ (j : (⟨2, ![n, h]⟩ : Shape).Idx) (k : D.contr.Idx), (D.lhsIdx j k 1).val = (k ⟨0, by omega⟩).val)
    (hr0 : ∀ (j : (⟨2, ![n, h]⟩ : Shape).Idx) (k : D.contr.Idx), (D.rhsIdx j k 0).val = (k ⟨0, by omega⟩).val)
    (hr1 : ∀ (j : (⟨2, ![n, h]⟩ : Shape).Idx) (k : D.contr.Idx), (D.rhsIdx j k 1).val = (j 1).val)
    (prec : Option ContractPrecision)
    (X : FVec Ideal (⟨2, ![n, d]⟩ : Shape) φ₁) (W : FVec Ideal (⟨2, ![d, h]⟩ : Shape) φ₂) :
    matmul D prec X W (constant (F := Ideal) (⟨2, ![n, h]⟩ : Shape) .f32 0x00000000#32) = mm X W := by
  funext j
  show FloatOps.matmul D prec X W (constant (F := Ideal) (⟨2, ![n, h]⟩ : Shape) .f32 0x00000000#32) j = _
  rw [Ideal.matmul_constant_zero_apply]
  exact Cert.LibDotSum.sum_contr_eq_sum_fin D hrank hsize hl0 hl1 hr0 hr1 X W j

/-- GENERAL LEMMA. The host's bias: a vector broadcast to one row and the row broadcast down the rows, added. -/
theorem host_addRow {n h : ℕ} (Y : FVec Ideal (⟨2, ![n, h]⟩ : Shape) .f32) (b : FVec Ideal (⟨1, ![h]⟩ : Shape) .f32)
    (h1 : (⟨1, ![h]⟩ : Shape).BroadcastsInDim ⟨2, ![1, h]⟩ ![1])
    (h2 : (⟨2, ![1, h]⟩ : Shape).BroadcastsInDim ⟨2, ![n, h]⟩ ![0, 1]) :
    addf Y (broadcastInDim ⟨2, ![n, h]⟩ ![0, 1] h2 (broadcastInDim ⟨2, ![1, h]⟩ ![1] h1 b)) = addRow Y b := by
  funext j
  obtain ⟨p, q, rfl⟩ : ∃ (p : Fin n) (q : Fin h), j = ix2 p q := ⟨j 0, j 1, eq_ix2 j⟩
  show Y (ix2 p q) + _ = Y (ix2 p q) + b (ix1 q)
  rw [Cert.LibHostLayout.broadcastInDim_1b_ab_apply, Cert.LibHostLayout.broadcastInDim_b_1b_apply]

/-- GENERAL LEMMA. The host's relu: the maximum with the zero constant broadcast to the array. -/
theorem host_relu {n h : ℕ} (Y : FVec Ideal (⟨2, ![n, h]⟩ : Shape) .f32)
    (h0 : (⟨0, ![]⟩ : Shape).BroadcastsInDim ⟨2, ![n, h]⟩ ![]) :
    maximumf Y (broadcastInDim ⟨2, ![n, h]⟩ ![] h0 (constant (F := Ideal) (⟨0, ![]⟩ : Shape) .f32 0x00000000#32)) = relu Y := by
  funext j
  show max (Y j) _ = max (Y j) _
  rw [broadcastInDim_apply ![] h0 _ j ix0 (fun a => a.elim0)]
  rfl

/-! ## The kernel's spelling -/

/-- GENERAL LEMMA. The kernel's bias: the `1 × h` block broadcast down the rows, added. -/
theorem kernel_addRow {n h : ℕ} (Y : FVec Ideal (⟨2, ![n, h]⟩ : Shape) .f32) (B : FVec Ideal (⟨2, ![1, h]⟩ : Shape) .f32)
    (hb : (⟨2, ![1, h]⟩ : Shape).Broadcasts ⟨2, ![n, h]⟩) :
    addf Y (broadcastTo ⟨2, ![n, h]⟩ B hb) = addRow Y (rowOf B) := by
  funext j
  obtain ⟨p, q, rfl⟩ : ∃ (p : Fin n) (q : Fin h), j = ix2 p q := ⟨j 0, j 1, eq_ix2 j⟩
  show Y (ix2 p q) + _ = Y (ix2 p q) + B (ix2 (0 : Fin 1) q)
  rw [broadcastTo_apply B hb (ix2 p q) (ix2 (0 : Fin 1) q) (fun a => by
    match a with
    | ⟨0, _⟩ => rfl
    | ⟨1, _⟩ =>
      show q.val = if h = 1 then 0 else q.val
      split
      · have := q.isLt; omega
      · rfl)]

/-- GENERAL LEMMA. The kernel's relu: the maximum with the zero scalar splat. -/
theorem kernel_relu {n h : ℕ} (Y : FVec Ideal (⟨2, ![n, h]⟩ : Shape) .f32) :
    maximumf Y (broadcast ⟨2, ![n, h]⟩ (Scalar.ofBits (F := Ideal) .f32 0x00000000#32)) = relu Y := rfl

/-- A change of float format is the identity on the extended reals. -/
theorem truncf_id {s : Shape} {φ ψ : FTy} (x : FVec Ideal s φ) (h : ψ.bits < φ.bits) : (truncf ψ x h : FVec Ideal s ψ) = x := rfl
theorem extf_id {s : Shape} {φ ψ : FTy} (x : FVec Ideal s φ) (h : φ.bits < ψ.bits) : (extf ψ x h : FVec Ideal s ψ) = x := rfl

end Cert.Layers

end
-- ==== Proof.Head.lean ====
/-
  The network after the aggregation, as one function of whole arrays.

  From the aggregated features `A` (one row per node) the network adds the convolution's bias to every row and takes
  the entrywise maximum with zero, applies a dense layer followed by the same maximum, and applies a last dense layer:
  `head A b₁ W₂ b₂ W₃ b₃ = dense (relu (dense (relu (A + b₁)) W₂ b₂)) W₃ b₃`.
  Each entry `(p, q)` of a matrix product, and so of the head, is computed from row `p` of its row input alone; two inputs
  that agree on that row (even of different heights) give the same entry. This is what lets a block of rows of the result
  be computed from the same block of rows of the input.
-/
import proofs.«148161_j78769700209215_1_alg».proof.Proof.LibLayers

noncomputable section

namespace Cert.Gcn

open Idealize.ShloMosaic Idealize.ShloMosaic.ValueIdx Cert.Layers

/-- The layers after the aggregation: bias and relu, a dense layer and relu, a dense layer. -/
def head {n : ℕ} (A : Mat n 128) (b₁ : Row 128) (W₂ : Mat 128 128) (b₂ : Row 128) (W₃ : Mat 128 64) (b₃ : Row 64) :
    Mat n 64 :=
  dense (relu (dense (relu (addRow A b₁)) W₂ b₂)) W₃ b₃

/-- A product's entry at `i` is the product's entry at `i'` of an input that has, on row `i' 0`, the entries the first
    input has on row `i 0`, when the columns agree. -/
theorem mm_congr {n n' d h : ℕ} (X : Mat n d) (X' : Mat n' d) (W W' : Mat d h)
    (i : (⟨2, ![n, h]⟩ : Shape).Idx) (i' : (⟨2, ![n', h]⟩ : Shape).Idx) (hq : (i 1 : Fin h) = i' 1)
    (hX : ∀ k : Fin d, X (ix2 (i 0) k) = X' (ix2 (i' 0) k)) (hW : W = W') : mm X W i = mm X' W' i' := by
  subst hW
  unfold mm
  exact Finset.sum_congr rfl fun k _ => congrArg₂ (· * ·) (hX k) (congrArg (fun q => W (ix2 k q)) hq)

/-- An entry of the head depends on one row of the aggregated features. -/
theorem head_row {n n' : ℕ} (A : Mat n 128) (A' : Mat n' 128) (b₁ : Row 128) (W₂ : Mat 128 128) (b₂ : Row 128)
    (W₃ : Mat 128 64) (b₃ : Row 64) (p : Fin n) (p' : Fin n') (q : Fin 64)
    (hA : ∀ k : Fin 128, A (ix2 p k) = A' (ix2 p' k)) :
    head A b₁ W₂ b₂ W₃ b₃ (ix2 p q) = head A' b₁ W₂ b₂ W₃ b₃ (ix2 p' q) := by
  unfold head
  refine dense_row _ _ W₃ b₃ p p' q fun j => ?_
  refine relu_row _ _ p p' j ?_
  refine dense_row _ _ W₂ b₂ p p' j fun k => ?_
  refine relu_row _ _ p p' k ?_
  show A (ix2 p k) + b₁ (ix1 k) = A' (ix2 p' k) + b₁ (ix1 k)
  rw [hA k]

/-- The same at any two indices with one column, the other operands equal. -/
theorem head_congr {n n' : ℕ} (A : Mat n 128) (A' : Mat n' 128) (b₁ b₁' : Row 128) (W₂ W₂' : Mat 128 128)
    (b₂ b₂' : Row 128) (W₃ W₃' : Mat 128 64) (b₃ b₃' : Row 64)
    (i : (⟨2, ![n, 64]⟩ : Shape).Idx) (i' : (⟨2, ![n', 64]⟩ : Shape).Idx) (hq : (i 1 : Fin 64) = i' 1)
    (hA : ∀ k : Fin 128, A (ix2 (i 0) k) = A' (ix2 (i' 0) k))
    (h1 : b₁ = b₁') (h2 : W₂ = W₂') (h3 : b₂ = b₂') (h4 : W₃ = W₃') (h5 : b₃ = b₃') :
    head A b₁ W₂ b₂ W₃ b₃ i = head A' b₁' W₂' b₂' W₃' b₃' i' := by
  subst h1 h2 h3 h4 h5
  have e : i = ix2 (i 0) (i 1) := eq_ix2 i
  have e' : i' = ix2 (i' 0) (i 1) := (eq_ix2 i').trans (congrArg (ix2 (i' 0)) hq.symm)
  exact (congrArg (head A b₁ W₂ b₂ W₃ b₃) e).trans
    ((head_row A A' b₁ W₂ b₂ W₃ b₃ (i 0) (i' 0) (i 1) hA).trans (congrArg (head A' b₁ W₂ b₂ W₃ b₃) e'.symm))

end Cert.Gcn

end
-- ==== Proof.KernelBody.lean ====
/-
  What each kernel body computes from the blocks it loads, at the exact-real reading.

  The first kernel's body multiplies its block of rows of `x` by the whole weight matrix: narrowing both to a shorter
  float format changes nothing on the extended reals, and a matrix product accumulated onto zeros is the product.
  The second kernel's body adds a bias, held as a one-row block and broadcast down the rows, takes the maximum with zero,
  multiplies by a weight matrix, and repeats: that is the head of the network on the block's rows.
-/
import proofs.«148161_j78769700209215_1_alg».proof.Proof.Gen.KernelIdeal.Skeleton
import proofs.«148161_j78769700209215_1_alg».proof.Proof.Head
import Idealize.ShloMosaic.Lib.Pipeline.Value

noncomputable section

namespace Cert.KernelIdeal.Body

open Idealize.ShloMosaic Idealize.ShloMosaic.ValueIdx Cert.KernelIdeal Cert.KernelIdeal.Gen Cert.Layers Cert.Gcn

/-- The first body's stored value is the product of its two loaded blocks. -/
theorem pay0_eq (x : FVec Ideal S2000x128 .f32) (w : FVec Ideal S128x128 .f32) :
    k0_pay1 (F := Ideal) x w = mm x w :=
  kernel_matmul dot_S2000x128_S128x128_S2000x128_1_0_0_1_n_n rfl rfl (fun _ _ => rfl) (fun _ _ => rfl)
    (fun _ _ => rfl) (fun _ _ => rfl) none x w

/-- The second body's stored value is the head of the network on its block of rows. -/
theorem pay1_eq (a : FVec Ideal S2000x128 .f32) (b1 : FVec Ideal S1x128 .f32) (w2 : FVec Ideal S128x128 .f32)
    (b2 : FVec Ideal S1x128 .f32) (w3 : FVec Ideal S128x64 .f32) (b3 : FVec Ideal S1x64 .f32) :
    k1_pay1 (F := Ideal) a b1 w2 b2 w3 b3 = head a (rowOf b1) w2 (rowOf b2) w3 (rowOf b3) := by
  unfold k1_pay1 head dense
  dsimp only
  rw [shapeCast_self, shapeCast_self, shapeCast_self, shapeCast_self]
  rw [kernel_addRow a b1, kernel_relu, kernel_relu]
  simp only [truncf_id]
  rw [kernel_matmul dot_S2000x128_S128x128_S2000x128_1_0_0_1_n_n rfl rfl (fun _ _ => rfl) (fun _ _ => rfl)
    (fun _ _ => rfl) (fun _ _ => rfl) none]
  rw [kernel_addRow _ b2]
  rw [kernel_matmul dot_S2000x128_S128x64_S2000x64_1_0_0_1_n_n rfl rfl (fun _ _ => rfl) (fun _ _ => rfl)
    (fun _ _ => rfl) (fun _ _ => rfl) none]
  rw [kernel_addRow _ b3]

end Cert.KernelIdeal.Body

end
-- ==== Proof.KernelBlocks.lean ====
/-
  Each kernel region's output array, from the blocks its grid points write.

  Both regions run over 25 grid points; point `t` reads rows `2000 t … 2000 t + 1999` of its row input, reads every other
  operand whole, and writes rows `2000 t … 2000 t + 1999` of the output. An entry of a matrix product, and of the network's
  head, depends on one row of the row input only, so what point `t` writes is block `t` of one whole-array function of the
  arrays the region finds: the product `x · w` for the first region, the head for the second. The 25 blocks tile the output
  (row `r` is in block `r / 2000`), so the output array ends holding that function. Stated for any contents `V` the region
  is entered with.
-/
import proofs.«148161_j78769700209215_1_alg».proof.Proof.Gen.KernelIdeal.Frame
import proofs.«148161_j78769700209215_1_alg».proof.Proof.KernelBody
import Idealize.ShloMosaic.Lib.Pipeline.Value

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Layers Cert.Gcn Cert.KernelIdeal.Body

variable (V : (c : Dev nD) → (b : Ref sig .tc) → Buf (Elt Ideal) ((c : Thread nD τ).loc b))

theorem hz : (![0, 0] : Fin 2 → Nat) = fun _ => 0 := funext fun a => by fin_cases a <;> rfl

/-! ## The first region: the product -/

/-- The block indices at point `t`: the row windows are at block `t`, the weights at block 0. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What the region's output holds where written. -/
abbrev prod0 (c : Dev nD) : Mat 50000 128 := mm (n := 50000) (d := 128) (h := 128) (V c main_arg0) (V c main_arg2)

/-- Point `t` writes back block `t` of the product. -/
theorem flushed0 (c : Dev nD) (t : Fin cfg0.N) :
    (dat0 V c).flushed 2 t = ((cfg0.win 2).blk t).view.read (Elt Ideal) (prod0 V c) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  obtain ⟨e00, e01, e10, e11, e20, e21⟩ := idx0 t
  funext y
  refine (congrFun (pay0_eq (iblk0 V c 0 t) (iblk0 V c 1 t)) y).trans ?_
  show mm (n := 2000) (d := 128) (h := 128) (iblk0 V c 0 t) (iblk0 V c 1 t) y
    = mm (n := 50000) (d := 128) (h := 128) (V c main_arg0) (V c main_arg2) (((cfg0.win 2).blk t).view.emb y)
  have hW : (iblk0 V c 1 t : Mat 128 128) = V c main_arg2 := by
    funext z
    show V c main_arg2 (((cfg0.win 1).blk t).view.emb z) = V c main_arg2 z
    refine congrArg (V c main_arg2) ?_
    funext a; apply Fin.ext
    match a with
    | ⟨0, _⟩ => show win0_1.index t (0 : Fin 2) * 128 + 1 * (z 0).val = (z 0).val; omega
    | ⟨1, _⟩ => show win0_1.index t (1 : Fin 2) * 128 + 1 * (z 1).val = (z 1).val; omega
  refine mm_congr _ _ _ _ y (((cfg0.win 2).blk t).view.emb y) ?_ ?_ hW
  · apply Fin.ext
    show (y 1).val = win0_2.index t (1 : Fin 2) * 128 + 1 * (y 1).val
    omega
  · intro k
    show V c main_arg0 (((cfg0.win 0).blk t).view.emb (ix2 (y 0) k)) = V c main_arg0 (ix2 ((((cfg0.win 2).blk t).view.emb y) 0) k)
    refine congrArg (V c main_arg0) ?_
    funext a; apply Fin.ext
    match a with
    | ⟨0, _⟩ => show win0_0.index t (0 : Fin 2) * 2000 + 1 * (y 0).val = win0_2.index t (0 : Fin 2) * 2000 + 1 * (y 0).val; omega
    | ⟨1, _⟩ => show win0_0.index t (1 : Fin 2) * 128 + 1 * k.val = k.val; omega

/-- An index of the output array is in point `t`'s block iff each coordinate is in the block's range. -/
theorem mem_blk0 (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v7).slice (win0_2.rect t)).set ↔ _
  rw [View.set_slice_whole, Rect.mem_set_unit]
  exact Iff.rfl

/-- Every row is in the block of the point `row / 2000`. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 25 := N_0
  have ht : (i 0).val / 2000 < cfg0.N := by show (i 0).val / 2000 < grid0.N; omega
  obtain ⟨-, -, -, -, e20, e21⟩ := idx0 ⟨(i 0).val / 2000, ht⟩
  refine ⟨⟨(i 0).val / 2000, ht⟩, flush0_2 _, ?_⟩
  rw [mem_blk0]
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    have e : win0_2.index ⟨(i 0).val / 2000, ht⟩ (0 : Fin 2) = (i 0).val / 2000 := e20
    omega
  | ⟨1, _⟩ =>
    show win0_2.index ⟨(i 0).val / 2000, ht⟩ (1 : Fin 2) * 128 ≤ (i 1).val ∧ (i 1).val < win0_2.index ⟨(i 0).val / 2000, ht⟩ (1 : Fin 2) * 128 + 128
    omega

/-- The first region's output array ends holding the product of the two arrays the region finds. -/
theorem final0 (c : Dev nD) : (dat0 V c).arrAt 2 cfg0.N = prod0 V c :=
  (dat0 V c).arrAt_eq_of_cover 2 (prod0 V c) (fun t _ => flushed0 V c t) cover0

/-! ## The second region: the head -/

theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What the region's output holds where written: the head of the arrays the region finds. -/
abbrev head1 (c : Dev nD) : Mat 50000 64 :=
  head (n := 50000) (V c main_v43) (rowOf (h := 128) (V c main_v44)) (V c main_arg4) (rowOf (h := 128) (V c main_v45))
    (V c main_arg6) (rowOf (h := 64) (V c main_v46))

/-- Point `t` writes back block `t` of the head. -/
theorem flushed1 (c : Dev nD) (t : Fin cfg1.N) :
    (dat1 V c).flushed 6 t = ((cfg1.win 6).blk t).view.read (Elt Ideal) (head1 V c) := by
  show (cfg1.win 6).cut (grid1.coords t) ((dat1 V c).after 6 t) = _
  rw [after1_6]
  unfold out1_6
  rw [View.canon_unit_zero hz]
  simp only [View.ld_unit_zero (S := S2000x128) hz, View.ld_unit_zero (S := S128x128) hz, View.ld_unit_zero (S := S1x128) hz,
    View.ld_unit_zero (S := S128x64) hz, View.ld_unit_zero (S := S1x64) hz]
  obtain ⟨e00, e01, e10, e11, e20, e21, e30, e31, e40, e41, e50, e51, e60, e61⟩ := idx1 t
  funext y
  refine (congrFun (pay1_eq (iblk1 V c 0 t) (iblk1 V c 1 t) (iblk1 V c 2 t) (iblk1 V c 3 t) (iblk1 V c 4 t) (iblk1 V c 5 t)) y).trans ?_
  show head (n := 2000) (iblk1 V c 0 t) (rowOf (h := 128) (iblk1 V c 1 t)) (iblk1 V c 2 t) (rowOf (h := 128) (iblk1 V c 3 t))
      (iblk1 V c 4 t) (rowOf (h := 64) (iblk1 V c 5 t)) y
    = head (n := 50000) (V c main_v43) (rowOf (h := 128) (V c main_v44)) (V c main_arg4) (rowOf (h := 128) (V c main_v45))
      (V c main_arg6) (rowOf (h := 64) (V c main_v46)) (((cfg1.win 6).blk t).view.emb y)
  have h1 : (iblk1 V c 1 t : Mat 1 128) = V c main_v44 := by
    funext z
    show V c main_v44 (((cfg1.win 1).blk t).view.emb z) = V c main_v44 z
    refine congrArg (V c main_v44) ?_
    funext a; apply Fin.ext
    match a with
    | ⟨0, _⟩ => show win1_1.index t (0 : Fin 2) * 1 + 1 * (z 0).val = (z 0).val; omega
    | ⟨1, _⟩ => show win1_1.index t (1 : Fin 2) * 128 + 1 * (z 1).val = (z 1).val; omega
  have h2 : (iblk1 V c 2 t : Mat 128 128) = V c main_arg4 := by
    funext z
    show V c main_arg4 (((cfg1.win 2).blk t).view.emb z) = V c main_arg4 z
    refine congrArg (V c main_arg4) ?_
    funext a; apply Fin.ext
    match a with
    | ⟨0, _⟩ => show win1_2.index t (0 : Fin 2) * 128 + 1 * (z 0).val = (z 0).val; omega
    | ⟨1, _⟩ => show win1_2.index t (1 : Fin 2) * 128 + 1 * (z 1).val = (z 1).val; omega
  have h3 : (iblk1 V c 3 t : Mat 1 128) = V c main_v45 := by
    funext z
    show V c main_v45 (((cfg1.win 3).blk t).view.emb z) = V c main_v45 z
    refine congrArg (V c main_v45) ?_
    funext a; apply Fin.ext
    match a with
    | ⟨0, _⟩ => show win1_3.index t (0 : Fin 2) * 1 + 1 * (z 0).val = (z 0).val; omega
    | ⟨1, _⟩ => show win1_3.index t (1 : Fin 2) * 128 + 1 * (z 1).val = (z 1).val; omega
  have h4 : (iblk1 V c 4 t : Mat 128 64) = V c main_arg6 := by
    funext z
    show V c main_arg6 (((cfg1.win 4).blk t).view.emb z) = V c main_arg6 z
    refine congrArg (V c main_arg6) ?_
    funext a; apply Fin.ext
    match a with
    | ⟨0, _⟩ => show win1_4.index t (0 : Fin 2) * 128 + 1 * (z 0).val = (z 0).val; omega
    | ⟨1, _⟩ => show win1_4.index t (1 : Fin 2) * 64 + 1 * (z 1).val = (z 1).val; omega
  have h5 : (iblk1 V c 5 t : Mat 1 64) = V c main_v46 := by
    funext z
    show V c main_v46 (((cfg1.win 5).blk t).view.emb z) = V c main_v46 z
    refine congrArg (V c main_v46) ?_
    funext a; apply Fin.ext
    match a with
    | ⟨0, _⟩ => show win1_5.index t (0 : Fin 2) * 1 + 1 * (z 0).val = (z 0).val; omega
    | ⟨1, _⟩ => show win1_5.index t (1 : Fin 2) * 64 + 1 * (z 1).val = (z 1).val; omega
  refine head_congr _ _ _ _ _ _ _ _ _ _ _ _ y (((cfg1.win 6).blk t).view.emb y) ?_ ?_
    (congrArg (rowOf (h := 128)) h1) h2 (congrArg (rowOf (h := 128)) h3) h4 (congrArg (rowOf (h := 64)) h5)
  · apply Fin.ext
    show (y 1).val = win1_6.index t (1 : Fin 2) * 64 + 1 * (y 1).val
    omega
  · intro k
    show V c main_v43 (((cfg1.win 0).blk t).view.emb (ix2 (y 0) k)) = V c main_v43 (ix2 ((((cfg1.win 6).blk t).view.emb y) 0) k)
    refine congrArg (V c main_v43) ?_
    funext a; apply Fin.ext
    match a with
    | ⟨0, _⟩ => show win1_0.index t (0 : Fin 2) * 2000 + 1 * (y 0).val = win1_6.index t (0 : Fin 2) * 2000 + 1 * (y 0).val; omega
    | ⟨1, _⟩ => show win1_0.index t (1 : Fin 2) * 128 + 1 * k.val = k.val; omega

theorem mem_blk1 (t : Fin cfg1.N) (i : S50000x64.Idx) :
    i ∈ ((cfg1.win 6).blk t).view.set ↔ ∀ a : Fin 2, win1_6.index t a * S2000x64.size a ≤ (i a).val ∧ (i a).val < win1_6.index t a * S2000x64.size a + S2000x64.size a := by
  show i ∈ ((View.whole main_v47).slice (win1_6.rect t)).set ↔ _
  rw [View.set_slice_whole, Rect.mem_set_unit]
  exact Iff.rfl

theorem cover1 (i : S50000x64.Idx) :
    ∃ t : Fin cfg1.N, (cfg1.win 6).flush t = true ∧ i ∈ ((cfg1.win 6).blk t).view.set := by
  have hi0 : (i 0).val < 50000 := (i 0).isLt
  have hi1 : (i 1).val < 64 := (i 1).isLt
  have hN : grid1.N = 25 := N_1
  have ht : (i 0).val / 2000 < cfg1.N := by show (i 0).val / 2000 < grid1.N; omega
  obtain ⟨-, -, -, -, -, -, -, -, -, -, -, -, e60, e61⟩ := idx1 ⟨(i 0).val / 2000, ht⟩
  refine ⟨⟨(i 0).val / 2000, ht⟩, flush1_6 _, ?_⟩
  rw [mem_blk1]
  intro a
  match a with
  | ⟨0, _⟩ =>
    show win1_6.index ⟨(i 0).val / 2000, ht⟩ (0 : Fin 2) * 2000 ≤ (i 0).val ∧ (i 0).val < win1_6.index ⟨(i 0).val / 2000, ht⟩ (0 : Fin 2) * 2000 + 2000
    have e : win1_6.index ⟨(i 0).val / 2000, ht⟩ (0 : Fin 2) = (i 0).val / 2000 := e60
    omega
  | ⟨1, _⟩ =>
    show win1_6.index ⟨(i 0).val / 2000, ht⟩ (1 : Fin 2) * 64 ≤ (i 1).val ∧ (i 1).val < win1_6.index ⟨(i 0).val / 2000, ht⟩ (1 : Fin 2) * 64 + 64
    omega

/-- The second region's output array ends holding the head of the arrays the region finds. -/
theorem final1 (c : Dev nD) : (dat1 V c).arrAt 6 cfg1.N = head1 V c :=
  (dat1 V c).arrAt_eq_of_cover 6 (head1 V c) (fun t _ => flushed1 V c t) cover1

end Cert.KernelIdeal.Blocks

end
-- ==== Proof.KernelHost.lean ====
/-
  The host operations of the idealized kernel's @main, read at the buffers the two regions take.

  Before the first region @main builds the two edge-endpoint lists (the given edges followed by one self-loop per node);
  the first region then computes the transformed features `x · w`; between the regions @main computes every node's degree,
  its inverse square root where positive, each edge's coefficient, gathers the transformed features along the edges, scales
  them, sums them per target node, and reshapes the three bias vectors to one-row arrays; the second region computes the head.
  The reference program performs literally the same host operations on the same product, so the aggregated array the second
  region is entered with is the reference's own stage `val_main_v43` of the argument arrays, once the first region's output
  is known to be the reference's product. No argument array is written by any host operation.

  The operations between the regions come in three stretches (up to the inverse square root; the selection of it where the
  degree is positive; the rest). Each stretch is read from ANY contents `Wv` of the buffers it is entered with, in terms of
  the few buffers it reads, and the stretches are then chained along the run's boundaries.
-/
import proofs.«148161_j78769700209215_1_alg».proof.Proof.Gen.KernelIdeal.Frame
import proofs.«148161_j78769700209215_1_alg».proof.Proof.KernelBlocks
import proofs.«148161_j78769700209215_1_alg».proof.Proof.RefReadPatched
import Idealize.ShloMosaic.Lib.StableHlo.Run
import Idealize.ShloMosaic.Lib.ValueLayout

set_option maxRecDepth 16384

noncomputable section

namespace Cert.KernelIdeal.HostRead

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen Cert.Layers Cert.Gcn Cert.KernelIdeal.Blocks

/-! ## Each stretch between the regions, from any entry contents -/

section Stretches

variable (x0 : FVec Ideal S50000x128 .f32) (x1 : (⟨S2x600000, .i32⟩ : BufTy).Contents (Elt Ideal)) (x2 : FVec Ideal S128x128 .f32)

/-- The first stretch computes the degrees from the target list, tests them against zero and takes their inverse
    square roots: the reference's stages of the edge array, when the target list is the reference's. -/
theorem s1_v13 (Wv : Valuation τ sig (Elt Ideal)) (h6 : Wv (Proc.devRef .tc main_v6) = Cert.ReferenceIdeal.ReadP.val_main_v6 (F := Ideal) x1) :
    StableHlo.after (hostOps1 (F := Ideal)) Wv (Proc.devRef .tc main_v13) = Cert.ReferenceIdeal.ReadP.val_main_v13 (F := Ideal) x1 := by
  after_results_simp
  rw [h6]
  rfl

theorem s1_v14 (Wv : Valuation τ sig (Elt Ideal)) (h6 : Wv (Proc.devRef .tc main_v6) = Cert.ReferenceIdeal.ReadP.val_main_v6 (F := Ideal) x1) :
    StableHlo.after (hostOps1 (F := Ideal)) Wv (Proc.devRef .tc main_v14) = Cert.ReferenceIdeal.ReadP.val_main_v14 (F := Ideal) x1 := by
  after_results_simp
  rw [h6]
  rfl

theorem s1_cst2 (Wv : Valuation τ sig (Elt Ideal)) :
    StableHlo.after (hostOps1 (F := Ideal)) Wv (Proc.devRef .tc main_cst_2) = Cert.ReferenceIdeal.ReadP.val_main_cst_2 (F := Ideal) := by
  after_results_simp
  rfl

theorem s1_main_v3 (Wv : Valuation τ sig (Elt Ideal)) :
    StableHlo.after (hostOps1 (F := Ideal)) Wv (Proc.devRef .tc main_v3) = Wv (Proc.devRef .tc main_v3) := by
  after_results_simp

theorem s1_main_v6 (Wv : Valuation τ sig (Elt Ideal)) :
    StableHlo.after (hostOps1 (F := Ideal)) Wv (Proc.devRef .tc main_v6) = Wv (Proc.devRef .tc main_v6) := by
  after_results_simp

theorem s1_main_v7 (Wv : Valuation τ sig (Elt Ideal)) :
    StableHlo.after (hostOps1 (F := Ideal)) Wv (Proc.devRef .tc main_v7) = Wv (Proc.devRef .tc main_v7) := by
  after_results_simp

theorem s1_main_arg3 (Wv : Valuation τ sig (Elt Ideal)) :
    StableHlo.after (hostOps1 (F := Ideal)) Wv (Proc.devRef .tc main_arg3) = Wv (Proc.devRef .tc main_arg3) := by
  after_results_simp

theorem s1_main_arg5 (Wv : Valuation τ sig (Elt Ideal)) :
    StableHlo.after (hostOps1 (F := Ideal)) Wv (Proc.devRef .tc main_arg5) = Wv (Proc.devRef .tc main_arg5) := by
  after_results_simp

theorem s1_main_arg7 (Wv : Valuation τ sig (Elt Ideal)) :
    StableHlo.after (hostOps1 (F := Ideal)) Wv (Proc.devRef .tc main_arg7) = Wv (Proc.devRef .tc main_arg7) := by
  after_results_simp

/-- The second stretch keeps the inverse square root where the degree is positive and puts zero elsewhere. -/
theorem s2_v15 (Wv : Valuation τ sig (Elt Ideal))
    (h13 : Wv (Proc.devRef .tc main_v13) = Cert.ReferenceIdeal.ReadP.val_main_v13 (F := Ideal) x1)
    (h14 : Wv (Proc.devRef .tc main_v14) = Cert.ReferenceIdeal.ReadP.val_main_v14 (F := Ideal) x1)
    (hc : Wv (Proc.devRef .tc main_cst_2) = Cert.ReferenceIdeal.ReadP.val_main_cst_2 (F := Ideal)) :
    StableHlo.after (hostOps1_1 (F := Ideal)) Wv (Proc.devRef .tc main_v15) = Cert.ReferenceIdeal.ReadP.val_main_v15 (F := Ideal) x1 := by
  have e : StableHlo.after (hostOps1_1 (F := Ideal)) Wv (Proc.devRef .tc main_v15)
      = select (Wv (Proc.devRef .tc main_v13)) (Wv (Proc.devRef .tc main_v14))
          (broadcastInDim S50000 ![] bcast_S_S50000 (Wv (Proc.devRef .tc main_cst_2))) := by
    after_results_simp
    rfl
  rw [e, h13, h14, hc]
  rfl

theorem s2_main_v3 (Wv : Valuation τ sig (Elt Ideal)) :
    StableHlo.after (hostOps1_1 (F := Ideal)) Wv (Proc.devRef .tc main_v3) = Wv (Proc.devRef .tc main_v3) := by
  after_results_simp

theorem s2_main_v6 (Wv : Valuation τ sig (Elt Ideal)) :
    StableHlo.after (hostOps1_1 (F := Ideal)) Wv (Proc.devRef .tc main_v6) = Wv (Proc.devRef .tc main_v6) := by
  after_results_simp

theorem s2_main_v7 (Wv : Valuation τ sig (Elt Ideal)) :
    StableHlo.after (hostOps1_1 (F := Ideal)) Wv (Proc.devRef .tc main_v7) = Wv (Proc.devRef .tc main_v7) := by
  after_results_simp

theorem s2_main_arg3 (Wv : Valuation τ sig (Elt Ideal)) :
    StableHlo.after (hostOps1_1 (F := Ideal)) Wv (Proc.devRef .tc main_arg3) = Wv (Proc.devRef .tc main_arg3) := by
  after_results_simp

theorem s2_main_arg5 (Wv : Valuation τ sig (Elt Ideal)) :
    StableHlo.after (hostOps1_1 (F := Ideal)) Wv (Proc.devRef .tc main_arg5) = Wv (Proc.devRef .tc main_arg5) := by
  after_results_simp

theorem s2_main_arg7 (Wv : Valuation τ sig (Elt Ideal)) :
    StableHlo.after (hostOps1_1 (F := Ideal)) Wv (Proc.devRef .tc main_arg7) = Wv (Proc.devRef .tc main_arg7) := by
  after_results_simp

/-- The third stretch gathers, scales and sums along the edges: the reference's aggregated stage, when the buffers it
    reads hold the reference's stages. -/
theorem s3_v43 (Wv : Valuation τ sig (Elt Ideal))
    (h15 : Wv (Proc.devRef .tc main_v15) = Cert.ReferenceIdeal.ReadP.val_main_v15 (F := Ideal) x1)
    (h3 : Wv (Proc.devRef .tc main_v3) = Cert.ReferenceIdeal.ReadP.val_main_v3 (F := Ideal) x1)
    (h6 : Wv (Proc.devRef .tc main_v6) = Cert.ReferenceIdeal.ReadP.val_main_v6 (F := Ideal) x1)
    (h7 : Wv (Proc.devRef .tc main_v7) = Cert.ReferenceIdeal.ReadP.val_main_v7 (F := Ideal) x0 x2) :
    StableHlo.after (hostOps1_2 (F := Ideal)) Wv (Proc.devRef .tc main_v43) = Cert.ReferenceIdeal.ReadP.val_main_v43 (F := Ideal) x0 x1 x2 := by
  after_results_simp
  rw [h15, h3, h6, h7]
  rfl

/-- and lays each bias vector out as a one-row array. -/
theorem s3_v44 (Wv : Valuation τ sig (Elt Ideal)) :
    StableHlo.after (hostOps1_2 (F := Ideal)) Wv (Proc.devRef .tc main_v44)
      = shapeCast S1x128 (Wv (Proc.devRef .tc main_arg3)) shapeCasts_S128_S1x128 := by
  after_results_simp
  rfl

theorem s3_v45 (Wv : Valuation τ sig (Elt Ideal)) :
    StableHlo.after (hostOps1_2 (F := Ideal)) Wv (Proc.devRef .tc main_v45)
      = shapeCast S1x128 (Wv (Proc.devRef .tc main_arg5)) shapeCasts_S128_S1x128 := by
  after_results_simp
  rfl

theorem s3_v46 (Wv : Valuation τ sig (Elt Ideal)) :
    StableHlo.after (hostOps1_2 (F := Ideal)) Wv (Proc.devRef .tc main_v46)
      = shapeCast S1x64 (Wv (Proc.devRef .tc main_arg7)) shapeCasts_S64_S1x64 := by
  after_results_simp
  rfl

end Stretches

variable (m : (ℓ : Loc nD τ sig) → Buf (Elt Ideal) ℓ) (ρ : Dev nD → PrngReg)

/-! ## The first region's inputs and output -/

theorem V1_arg0 (c : Dev nD) : V1 m ρ c main_arg0 = m ((c : Thread nD τ).loc main_arg0) := by
  show StableHlo.after hostOps0 (W0 m ρ c) (Proc.devRef .tc main_arg0) = _
  after_results

theorem V1_arg2 (c : Dev nD) : V1 m ρ c main_arg2 = m ((c : Thread nD τ).loc main_arg2) := by
  show StableHlo.after hostOps0 (W0 m ρ c) (Proc.devRef .tc main_arg2) = _
  after_results

/-- The first region leaves the reference's product in its output array. -/
theorem W2_v7 (c : Dev nD) :
    W2 m ρ c (Proc.devRef .tc main_v7) = Cert.ReferenceIdeal.ReadP.val_main_v7 (F := Ideal) (m ((c : Thread nD τ).loc main_arg0)) (m ((c : Thread nD τ).loc main_arg2)) := by
  refine (W2_arr m ρ c 2).trans ((final0 (V1 m ρ) c).trans ?_)
  unfold prod0
  rw [V1_arg0, V1_arg2]
  exact (host_dot Cert.ReferenceIdeal.dot_S50000x128_S128x128_S50000x128_1_0_0_1_n_n rfl rfl (fun _ _ => rfl) (fun _ _ => rfl)
    (fun _ _ => rfl) (fun _ _ => rfl) none _ _).symm

/-! ## The edge lists, built before the first region, and the bias vectors -/

theorem W2_v3 (c : Dev nD) : W2 m ρ c (Proc.devRef .tc main_v3) = Cert.ReferenceIdeal.ReadP.val_main_v3 (F := Ideal) (m ((c : Thread nD τ).loc main_arg1)) := by
  refine (W2_of_ne m ρ c main_v3 (by decide)).trans ?_
  show StableHlo.after hostOps0 (W0 m ρ c) (Proc.devRef .tc main_v3) = _
  after_results
  rfl

theorem W2_v6 (c : Dev nD) : W2 m ρ c (Proc.devRef .tc main_v6) = Cert.ReferenceIdeal.ReadP.val_main_v6 (F := Ideal) (m ((c : Thread nD τ).loc main_arg1)) := by
  refine (W2_of_ne m ρ c main_v6 (by decide)).trans ?_
  show StableHlo.after hostOps0 (W0 m ρ c) (Proc.devRef .tc main_v6) = _
  after_results
  rfl

theorem W2_arg3 (c : Dev nD) : W2 m ρ c (Proc.devRef .tc main_arg3) = m ((c : Thread nD τ).loc main_arg3) := by
  refine (W2_of_ne m ρ c main_arg3 (by decide)).trans ?_
  show StableHlo.after hostOps0 (W0 m ρ c) (Proc.devRef .tc main_arg3) = _
  after_results

theorem W2_arg5 (c : Dev nD) : W2 m ρ c (Proc.devRef .tc main_arg5) = m ((c : Thread nD τ).loc main_arg5) := by
  refine (W2_of_ne m ρ c main_arg5 (by decide)).trans ?_
  show StableHlo.after hostOps0 (W0 m ρ c) (Proc.devRef .tc main_arg5) = _
  after_results

theorem W2_arg7 (c : Dev nD) : W2 m ρ c (Proc.devRef .tc main_arg7) = m ((c : Thread nD τ).loc main_arg7) := by
  refine (W2_of_ne m ρ c main_arg7 (by decide)).trans ?_
  show StableHlo.after hostOps0 (W0 m ρ c) (Proc.devRef .tc main_arg7) = _
  after_results

/-! ## Along the boundaries: what the second region is entered with -/

theorem W3_v6 (c : Dev nD) : W3 m ρ c (Proc.devRef .tc main_v6) = Cert.ReferenceIdeal.ReadP.val_main_v6 (F := Ideal) (m ((c : Thread nD τ).loc main_arg1)) :=
  (s1_main_v6 (W2 m ρ c)).trans (W2_v6 m ρ c)
theorem W3_v3 (c : Dev nD) : W3 m ρ c (Proc.devRef .tc main_v3) = Cert.ReferenceIdeal.ReadP.val_main_v3 (F := Ideal) (m ((c : Thread nD τ).loc main_arg1)) :=
  (s1_main_v3 (W2 m ρ c)).trans (W2_v3 m ρ c)
theorem W3_v7 (c : Dev nD) : W3 m ρ c (Proc.devRef .tc main_v7) = Cert.ReferenceIdeal.ReadP.val_main_v7 (F := Ideal) (m ((c : Thread nD τ).loc main_arg0)) (m ((c : Thread nD τ).loc main_arg2)) :=
  (s1_main_v7 (W2 m ρ c)).trans (W2_v7 m ρ c)

theorem W4_v15 (c : Dev nD) : W4 m ρ c (Proc.devRef .tc main_v15) = Cert.ReferenceIdeal.ReadP.val_main_v15 (F := Ideal) (m ((c : Thread nD τ).loc main_arg1)) :=
  s2_v15 (m ((c : Thread nD τ).loc main_arg1)) (W3 m ρ c) (s1_v13 (m ((c : Thread nD τ).loc main_arg1)) (W2 m ρ c) (W2_v6 m ρ c)) (s1_v14 (m ((c : Thread nD τ).loc main_arg1)) (W2 m ρ c) (W2_v6 m ρ c)) (s1_cst2 (W2 m ρ c))
theorem W4_v6 (c : Dev nD) : W4 m ρ c (Proc.devRef .tc main_v6) = Cert.ReferenceIdeal.ReadP.val_main_v6 (F := Ideal) (m ((c : Thread nD τ).loc main_arg1)) :=
  (s2_main_v6 (W3 m ρ c)).trans (W3_v6 m ρ c)
theorem W4_v3 (c : Dev nD) : W4 m ρ c (Proc.devRef .tc main_v3) = Cert.ReferenceIdeal.ReadP.val_main_v3 (F := Ideal) (m ((c : Thread nD τ).loc main_arg1)) :=
  (s2_main_v3 (W3 m ρ c)).trans (W3_v3 m ρ c)
theorem W4_v7 (c : Dev nD) : W4 m ρ c (Proc.devRef .tc main_v7) = Cert.ReferenceIdeal.ReadP.val_main_v7 (F := Ideal) (m ((c : Thread nD τ).loc main_arg0)) (m ((c : Thread nD τ).loc main_arg2)) :=
  (s2_main_v7 (W3 m ρ c)).trans (W3_v7 m ρ c)
theorem W4_arg3 (c : Dev nD) : W4 m ρ c (Proc.devRef .tc main_arg3) = m ((c : Thread nD τ).loc main_arg3) :=
  (s2_main_arg3 (W3 m ρ c)).trans ((s1_main_arg3 (W2 m ρ c)).trans (W2_arg3 m ρ c))
theorem W4_arg5 (c : Dev nD) : W4 m ρ c (Proc.devRef .tc main_arg5) = m ((c : Thread nD τ).loc main_arg5) :=
  (s2_main_arg5 (W3 m ρ c)).trans ((s1_main_arg5 (W2 m ρ c)).trans (W2_arg5 m ρ c))
theorem W4_arg7 (c : Dev nD) : W4 m ρ c (Proc.devRef .tc main_arg7) = m ((c : Thread nD τ).loc main_arg7) :=
  (s2_main_arg7 (W3 m ρ c)).trans ((s1_main_arg7 (W2 m ρ c)).trans (W2_arg7 m ρ c))

/-- The aggregated features: the reference's stage of the argument arrays. -/
theorem V5_v43 (c : Dev nD) : V5 m ρ c main_v43 = Cert.ReferenceIdeal.ReadP.val_main_v43 (F := Ideal) (m ((c : Thread nD τ).loc main_arg0)) (m ((c : Thread nD τ).loc main_arg1)) (m ((c : Thread nD τ).loc main_arg2)) :=
  s3_v43 (m ((c : Thread nD τ).loc main_arg0)) (m ((c : Thread nD τ).loc main_arg1)) (m ((c : Thread nD τ).loc main_arg2)) (W4 m ρ c) (W4_v15 m ρ c) (W4_v3 m ρ c) (W4_v6 m ρ c) (W4_v7 m ρ c)

/-- The three bias rows are the bias vectors laid out as one-row arrays. -/
theorem V5_v44 (c : Dev nD) :
    V5 m ρ c main_v44 = shapeCast S1x128 (m ((c : Thread nD τ).loc main_arg3)) shapeCasts_S128_S1x128 :=
  (s3_v44 (W4 m ρ c)).trans (congrArg (fun b => shapeCast S1x128 b shapeCasts_S128_S1x128) (W4_arg3 m ρ c))

theorem V5_v45 (c : Dev nD) :
    V5 m ρ c main_v45 = shapeCast S1x128 (m ((c : Thread nD τ).loc main_arg5)) shapeCasts_S128_S1x128 :=
  (s3_v45 (W4 m ρ c)).trans (congrArg (fun b => shapeCast S1x128 b shapeCasts_S128_S1x128) (W4_arg5 m ρ c))

theorem V5_v46 (c : Dev nD) :
    V5 m ρ c main_v46 = shapeCast S1x64 (m ((c : Thread nD τ).loc main_arg7)) shapeCasts_S64_S1x64 :=
  (s3_v46 (W4 m ρ c)).trans (congrArg (fun b => shapeCast S1x64 b shapeCasts_S64_S1x64) (W4_arg7 m ρ c))

/-- The row of a vector laid out as a one-row array is the vector. -/
theorem rowOf_cast {h : ℕ} (b : Row h) (hc : (⟨1, ![h]⟩ : Shape).ShapeCasts ⟨2, ![1, h]⟩) :
    rowOf (shapeCast ⟨2, ![1, h]⟩ b hc) = b := by
  funext i
  show shapeCast ⟨2, ![1, h]⟩ b hc (ix2 (0 : Fin 1) (i 0)) = b i
  rw [shapeCast_a_1a_apply b hc 0 (i 0)]
  exact congrArg b (eq_ix1 i).symm

/-- The two weight matrices are the launch arrays: the second region's arrays end as it found them, and the run ends
    with the arguments as launched. -/
theorem V5_arg4 (c : Dev nD) : V5 m ρ c main_arg4 = m ((c : Thread nD τ).loc main_arg4) :=
  ((W6_arr m ρ c 2).trans (((dat1 (V5 m ρ) c).arrAt_in 2 rfl _).trans (A_eq1 (V5 m ρ) c 2))).symm.trans (W6_main_arg4 m ρ c)

theorem V5_arg6 (c : Dev nD) : V5 m ρ c main_arg6 = m ((c : Thread nD τ).loc main_arg6) :=
  ((W6_arr m ρ c 4).trans (((dat1 (V5 m ρ) c).arrAt_in 4 rfl _).trans (A_eq1 (V5 m ρ) c 4))).symm.trans (W6_main_arg6 m ρ c)

end Cert.KernelIdeal.HostRead

end
-- ==== Proof.KernelValue.lean ====
/-
  The idealized kernel's result as one function of its arguments.

  The run ends with the result buffer at the last boundary's contents, which is the second region's output array after its
  write-backs: the head of the arrays that region is entered with. Those are the aggregated features — the reference's own
  aggregation stage of the arguments, the first region having produced the reference's product —, the three bias vectors laid
  out as rows, and the two weight matrices as launched. So the result is the head of the reference's aggregated stage and the
  five parameter arrays.
-/
import proofs.«148161_j78769700209215_1_alg».proof.Proof.KernelRun
import proofs.«148161_j78769700209215_1_alg».proof.Proof.KernelHost

set_option maxRecDepth 16384

noncomputable section

namespace Cert.KernelIdeal.Result

open Idealize.ShloMosaic Idealize.ShloMosaic.TcCoe Idealize.ShloMosaic.ValueIdx Idealize.SL.Sem
open Cert.KernelIdeal Cert.KernelIdeal.Gen Cert.Layers Cert.Gcn Cert.KernelIdeal.Blocks Cert.KernelIdeal.HostRead

variable (m : (ℓ : Loc nD τ sig) → Buf (Elt Ideal) ℓ) (ρ : Dev nD → PrngReg)

/-- The last boundary's contents at the result buffer. -/
theorem result_eq_head (c : Dev nD) :
    W6 m ρ c (Proc.devRef .tc main_v47)
      = head (n := 50000) (Cert.ReferenceIdeal.ReadP.val_main_v43 (F := Ideal) (m ((c : Thread nD τ).loc main_arg0)) (m ((c : Thread nD τ).loc main_arg1)) (m ((c : Thread nD τ).loc main_arg2)))
        (m ((c : Thread nD τ).loc main_arg3)) (m ((c : Thread nD τ).loc main_arg4)) (m ((c : Thread nD τ).loc main_arg5)) (m ((c : Thread nD τ).loc main_arg6)) (m ((c : Thread nD τ).loc main_arg7)) := by
  refine (W6_arr m ρ c 6).trans ((final1 (V5 m ρ) c).trans ?_)
  unfold head1
  rw [V5_v43, V5_v44, V5_v45, V5_v46, V5_arg4, V5_arg6]
  rw [rowOf_cast, rowOf_cast, rowOf_cast]

/-- Every weakly fair execution ends with the result at that function of the arguments, the arguments unchanged. -/
theorem run : θ_run defs (onTc (τ := τ) (main (F := Ideal))) ⟨m, fun _ => 0, ρ⟩ (fun r => ∀ c : Dev nD,
      r.2.mem ((c.tc : Thread nD τ).loc main_v47)
        = head (n := 50000) (Cert.ReferenceIdeal.ReadP.val_main_v43 (F := Ideal) (m ((c : Thread nD τ).loc main_arg0)) (m ((c : Thread nD τ).loc main_arg1)) (m ((c : Thread nD τ).loc main_arg2)))
        (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq_head m ρ c), (h c).2⟩)
    (Cert.KernelIdeal.RunResult.run_result (F := Ideal) m ρ)

end Cert.KernelIdeal.Result

end
-- ==== Proof.RefHead.lean ====
/-
  The reference's last stages are the head of the network.

  After the aggregation the reference adds the convolution's bias (broadcast to one row, then down the rows), takes the
  maximum with a zero array, multiplies by the second weight matrix and adds its bias, takes the maximum again, and
  multiplies by the last weight matrix and adds the last bias. Read through the layer lemmas this is
  `head` of the aggregated array and the five parameter arrays.
-/
import proofs.«148161_j78769700209215_1_alg».proof.Proof.RefReadPatched
import proofs.«148161_j78769700209215_1_alg».proof.Proof.Head

noncomputable section

namespace Cert.ReferenceIdeal.RefHead

open Idealize.ShloMosaic Idealize.ShloMosaic.ValueIdx Cert.ReferenceIdeal Cert.ReferenceIdeal.ReadP Cert.Layers Cert.Gcn

/-- The reference's result, as a function of its arguments, is the head of its own aggregated stage. -/
theorem result_eq_head (x0 : FVec Ideal S50000x128 .f32) (x1 : (⟨S2x600000, .i32⟩ : BufTy).Contents (Elt Ideal))
    (x2 : FVec Ideal S128x128 .f32) (x3 : FVec Ideal S128 .f32) (x4 : FVec Ideal S128x128 .f32) (x5 : FVec Ideal S128 .f32)
    (x6 : FVec Ideal S128x64 .f32) (x7 : FVec Ideal S64 .f32) :
    val_main_v56 (F := Ideal) x0 x1 x2 x3 x4 x5 x6 x7
      = head (n := 50000) (val_main_v43 (F := Ideal) x0 x1 x2) x3 x4 x5 x6 x7 := by
  unfold val_main_v56 val_main_v55 val_main_v54 val_main_v53 val_main_v52 val_main_call2_v0 val_main_call2_cst val_main_v51
    val_main_v50 val_main_v49 val_main_v48 val_main_v47 val_main_call1_v0 val_main_call1_cst val_main_v46 val_main_v45
    val_main_v44 head dense
  rw [host_addRow _ x3, host_addRow _ x5, host_addRow _ x7, host_relu, host_relu]
  rw [host_dot dot_S50000x128_S128x128_S50000x128_1_0_0_1_n_n rfl rfl (fun _ _ => rfl) (fun _ _ => rfl)
    (fun _ _ => rfl) (fun _ _ => rfl) none]
  rw [host_dot dot_S50000x128_S128x64_S50000x64_1_0_0_1_n_n rfl rfl (fun _ _ => rfl) (fun _ _ => rfl)
    (fun _ _ => rfl) (fun _ _ => rfl) none]

end Cert.ReferenceIdeal.RefHead

end
-- ==== Proof.lean ====
/-
  The proof of `Cert.Claim`: a graph convolution with symmetric normalisation followed by two dense layers, computed by a
  program of two kernel regions, against its array-level reference.

  Both programs build the same edge lists, compute `h = x · w`, aggregate `h` along the edges with the coefficients
  `deg^(-1/2)[src] · deg^(-1/2)[dst]`, and apply the head: bias and maximum with zero, a dense layer and the maximum again, a
  dense layer. The kernel computes `x · w` and the head in row blocks of 2000 rows, with the matrices narrowed to a shorter
  float format before each product; the host operations between the two regions are literally the reference's. On the
  extended reals the narrowing is the identity, a row block of a product or of the head is that block of the whole array's
  (each entry reads one row), and the blocks tile the arrays: so both results are the head of one aggregated array, and they
  are equal as stated, with no use of the inputs' finiteness. The kernel's idealization rewrote no operation, so
  `preserves` has nothing to state. The frames of the two kernel programs are the generated ones; the reference's is its
  run with the result dropped.
-/
import proofs.«148161_j78769700209215_1_alg».proof.Defs
import proofs.«148161_j78769700209215_1_alg».proof.Proof.Gen.Kernel
import proofs.«148161_j78769700209215_1_alg».proof.Proof.Gen.Kernel.Frame
import proofs.«148161_j78769700209215_1_alg».proof.Proof.Gen.KernelIdeal
import proofs.«148161_j78769700209215_1_alg».proof.Proof.Gen.KernelIdeal.Frame
import proofs.«148161_j78769700209215_1_alg».proof.Proof.Gen.ReferenceIdeal
import proofs.«148161_j78769700209215_1_alg».proof.Proof.Gen.Pre_finite_inputs
import proofs.«148161_j78769700209215_1_alg».proof.Proof.KernelValue
import proofs.«148161_j78769700209215_1_alg».proof.Proof.RefHead
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the result at the head of the reference's aggregated stage of the arguments, which agree. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7⟩ := hagree c
  rw [Cert.ReferenceIdeal.ReadP.val_main_v56_eq, Cert.ReferenceIdeal.RefHead.result_eq_head, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
